-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x10 : Shape := ⟨2, ![50000, 10]⟩
abbrev S5000x10 : Shape := ⟨2, ![5000, 10]⟩
abbrev S850000x10 : Shape := ⟨2, ![850000, 10]⟩
abbrev S1x10 : Shape := ⟨2, ![1, 10]⟩
abbrev S1 : Shape := ⟨1, ![1]⟩
abbrev S1x1 : Shape := ⟨2, ![1, 1]⟩

abbrev nBuf : Space → Nat
  | .hbm => 126
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x10, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x10, .f32⟩
  | .hbm, ⟨96, _⟩ => ⟨S850000x1, .f32⟩
  | .hbm, ⟨97, _⟩ => ⟨S850000x10, .f32⟩
  | .hbm, ⟨98, _⟩ => ⟨S850000x10, .f32⟩
  | .hbm, ⟨99, _⟩ => ⟨S_, .f32⟩
  | .hbm, ⟨100, _⟩ => ⟨S50000x10, .f32⟩
  | .hbm, ⟨101, _⟩ => ⟨S850000x1, .i32⟩
  | .hbm, ⟨102, _⟩ => ⟨S50000x10, .f32⟩
  | .hbm, ⟨103, _⟩ => ⟨S1x10, .f32⟩
  | .hbm, ⟨104, _⟩ => ⟨S50000x10, .f32⟩
  | .hbm, ⟨105, _⟩ => ⟨S_, .f32⟩
  | .hbm, ⟨106, _⟩ => ⟨S10, .f32⟩
  | .hbm, ⟨107, _⟩ => ⟨S1x10, .f32⟩
  | .hbm, ⟨108, _⟩ => ⟨S_, .f32⟩
  | .hbm, ⟨109, _⟩ => ⟨S1x10, .f32⟩
  | .hbm, ⟨110, _⟩ => ⟨S1x10, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | .hbm, ⟨116, _⟩ => ⟨S1x1, .f32⟩
  | .hbm, ⟨117, _⟩ => ⟨S1x10, .f32⟩
  | .hbm, ⟨118, _⟩ => ⟨S1x10, .f32⟩
  | .hbm, ⟨119, _⟩ => ⟨S1x10, .f32⟩
  | .hbm, ⟨120, _⟩ => ⟨S_, .f32⟩
  | .hbm, ⟨121, _⟩ => ⟨S1, .f32⟩
  | .hbm, ⟨122, _⟩ => ⟨S1x1, .f32⟩
  | .hbm, ⟨123, _⟩ => ⟨S1x1, .f32⟩
  | .hbm, ⟨124, _⟩ => ⟨S1x10, .f32⟩
  | .hbm, ⟨125, _⟩ => ⟨S1x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x10, .f32⟩
  | .local _ .vmem, ⟨23, _⟩ => ⟨S5000x10, .f32⟩
  | .local _ .vmem, ⟨24, _⟩ => ⟨S5000x10, .f32⟩
  | .local _ .vmem, ⟨25, _⟩ => ⟨S5000x10, .f32⟩
  | .local _ .vmem, ⟨26, _⟩ => ⟨S5000x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v82 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reducesTo_S50000x10_S10_d0 : S50000x10.ReducesTo [0] S10
  h_S_ : 0 < S_.numel
  bcast_S10_S1x10_1 : S10.BroadcastsInDim S1x10 (![1] : Fin 1 → Fin S1x10.rank)
  bcast_S_S1x10 : S_.BroadcastsInDim S1x10 (![] : Fin 0 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x10_S5000x10_1_0_0_1_n_n_wf : DotDims.WF S5000x128 S128x10 S5000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x10.size a ≤ S50000x10.size a
  hwx4_2 : ∀ i : grid4.Coords, EltTy.bits .f32 = 32 ∨ (Rect.block (s := S50000x10) S5000x10.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S50000x10.size a
  hwx5_0 : ∀ i : grid5.Coords, EltTy.bits .f32 = 32 ∨ (Rect.block (s := S50000x10) S5000x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x10.size a ≤ S50000x10.size a
  hwx5_2 : ∀ i : grid5.Coords, EltTy.bits .f32 = 32 ∨ (Rect.block (s := S50000x10) S5000x10.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x10.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x10.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x10 : Shape := ⟨2, ![50000, 10]⟩
abbrev S850000x10 : Shape := ⟨2, ![850000, 10]⟩
abbrev S1x10 : Shape := ⟨2, ![1, 10]⟩
abbrev S1 : Shape := ⟨1, ![1]⟩
abbrev S1x1 : Shape := ⟨2, ![1, 1]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x10, .f32⟩
  | 3 => ⟨S50000, .i32⟩
  | 4 => ⟨S850000, .i32⟩
  | 5 => ⟨S850000, .i32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S50000, .f32⟩
  | 16 => ⟨S_, .f32⟩
  | 17 => ⟨S_, .f32⟩
  | 18 => ⟨S50000, .f32⟩
  | 19 => ⟨S50000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x10, .f32⟩
  | 48 => ⟨S850000x1, .f32⟩
  | 49 => ⟨S850000x10, .f32⟩
  | 50 => ⟨S850000x10, .f32⟩
  | 51 => ⟨S_, .f32⟩
  | 52 => ⟨S50000x10, .f32⟩
  | 53 => ⟨S850000x1, .i32⟩
  | 54 => ⟨S50000x10, .f32⟩
  | 55 => ⟨S1x10, .f32⟩
  | 56 => ⟨S50000x10, .f32⟩
  | 57 => ⟨S50000x10, .f32⟩
  | 58 => ⟨S_, .f32⟩
  | 59 => ⟨S10, .f32⟩
  | 60 => ⟨S1x10, .f32⟩
  | 61 => ⟨S_, .f32⟩
  | 62 => ⟨S1x10, .f32⟩
  | 63 => ⟨S1x10, .f32⟩
  | 64 => ⟨S_, .f32⟩
  | 65 => ⟨S1, .f32⟩
  | 66 => ⟨S_, .f32⟩
  | 67 => ⟨S1, .f32⟩
  | 68 => ⟨S1, .f32⟩
  | 69 => ⟨S1x1, .f32⟩
  | 70 => ⟨S1x10, .f32⟩
  | 71 => ⟨S1x10, .f32⟩
  | 72 => ⟨S1x10, .f32⟩
  | 73 => ⟨S_, .f32⟩
  | 74 => ⟨S1, .f32⟩
  | 75 => ⟨S1x1, .f32⟩
  | 76 => ⟨S1x1, .f32⟩
  | 77 => ⟨S1x10, .f32⟩
  | 78 => ⟨S1x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_c_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_c_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_31 : Ref sig .tc := ⟨.hbm, 186, rfl⟩
abbrev main_v135 : Ref sig .tc := ⟨.hbm, 187, rfl⟩
abbrev main_v136 : Ref sig .tc := ⟨.hbm, 188, rfl⟩
abbrev main_cst_32 : Ref sig .tc := ⟨.hbm, 189, rfl⟩
abbrev main_v137 : Ref sig .tc := ⟨.hbm, 190, rfl⟩
abbrev main_v138 : Ref sig .tc := ⟨.hbm, 191, rfl⟩
abbrev main_call5_cst : Ref sig .tc := ⟨.hbm, 192, rfl⟩
abbrev main_call5_v0 : Ref sig .tc := ⟨.hbm, 193, rfl⟩
abbrev main_call5_cst_0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_cst_1 : Ref sig .tc := ⟨.hbm, 201, rfl⟩
abbrev main_call5_v7 : Ref sig .tc := ⟨.hbm, 202, rfl⟩
abbrev main_call5_v8 : Ref sig .tc := ⟨.hbm, 203, rfl⟩
abbrev main_call5_v9 : Ref sig .tc := ⟨.hbm, 204, rfl⟩
abbrev main_call5_v10 : Ref sig .tc := ⟨.hbm, 205, rfl⟩
abbrev main_v139 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S10_d0 : S50000x10.ReducesTo [0] S10
  h_S_ : 0 < S_.numel
  bcast_S_S1x10 : S_.BroadcastsInDim S1x10 (![] : Fin 0 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf

class Facts : Prop extends Facts₀ where

variable [Facts]
-- ==== Proof.KernelRun.lean ====
/-
  The idealized kernel program's run with its result named. Every weakly fair execution of the program terminates
  without a fault; the result buffer then holds what the last host operation leaves there — the contents of the
  buffers carried from the launch memory through every stretch of host operations and every grid of block
  computations, each output array of a grid being what its write-backs leave — and the argument arrays are unchanged.
-/
import proofs.«103406_j31817117729398_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v82 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Named

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«103406_j31817117729398_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«103406_j31817117729398_1_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.Spec.lean ====
/-
  The graph-convolution network as one function of its arguments, on the extended reals.

  For node features x, an edge list e (sources and destinations, to which one self loop per node is appended) and three
  layers (W, b):  layer(h) = A · (h · W) + b,  where A is the normalised adjacency operator: a message along edge j is
  row src(j) of h · W scaled by norm(j) = dinv(src j) · dinv(dst j), and messages are summed into row dst(j); dinv is
  deg^(-1/2) where the in-degree deg is positive and 0 elsewhere. The first two layers are followed by max(·, 0). The
  result is the log-softmax of the mean over the nodes of the last layer's rows.

  The edge-indexed parts (degrees, gather, scatter-add) and the final mean and log-softmax are kept as the host
  operations both programs apply; the dense parts are the exact matrix product and a bias row added to every row.
-/
import proofs.«103406_j31817117729398_1_alg».proof.Proof.Gen.KernelIdeal
import proofs.«103406_j31817117729398_1_alg».proof.Proof.LibExactProduct
import Idealize.ShloMosaic.PureOps.Ideal

noncomputable section

namespace Cert.KernelIdeal.Spec

open Cert.KernelIdeal Cert.KernelIdeal.Facts₀ Cert.KernelIdeal.Facts Idealize.ShloMosaic Idealize.ShloMosaic.ValueIdx

variable {F : FTy → Type} [FloatOps F]

/-- Row `k` of the edge list (0: sources, 1: destinations) followed by the self loops 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index vector as the column a gather reads it by, negative entries counted from the end (n + i for i < 0). -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- An index vector as the column a scatter reads it by. -/
def col (s : (⟨S850000, .i32⟩ : BufTy).Contents (Elt F)) : (⟨S850000x1, .i32⟩ : BufTy).Contents (Elt F) :=
  broadcastInDim S850000x1 ![0] bcast_S850000_S850000x1_0 s

/-- The in-degree of every node: ones summed into the destinations. -/
def degOf (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (col (dstOf e)) (broadcastInDim S850000 ![] bcast_S_S850000 (constant S_ .f32 0x3F800000#32))

/-- Where the degree is positive. -/
def posDegOf (e : (⟨S2x800000, .i32⟩ : BufTy).Contents (Elt F)) : (⟨S50000, .i1⟩ : BufTy).Contents (Elt F) :=
  cmpf .ogt (degOf e) (broadcastInDim S50000 ![] bcast_S_S50000 (constant S_ .f32 0x00000000#32))

/-- deg^(-1/2), entry by entry. -/
def rsqrtDegOf (e : (⟨S2x800000, .i32⟩ : BufTy).Contents (Elt F)) : (⟨S50000, .f32⟩ : BufTy).Contents (Elt F) :=
  Host.rsqrt (degOf e)

/-- The scalar 0. -/
def zeroScalar : (⟨S_, .f32⟩ : BufTy).Contents (Elt F) := constant S_ .f32 0x00000000#32

/-- The entries of `r` where the mask `p` holds, the scalar `z` elsewhere. -/
def dinvFrom (p : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select p r (broadcastInDim S50000 ![] bcast_S_S50000 z)

/-- deg^(-1/2) where the degree is positive, 0 elsewhere. -/
def dinvOf (e : (⟨S2x800000, .i32⟩ : BufTy).Contents (Elt F)) : (⟨S50000, .f32⟩ : BufTy).Contents (Elt F) :=
  dinvFrom (posDegOf e) (rsqrtDegOf e) zeroScalar

/-- The weight of every edge from a table `d` of node factors: `d` at its source times `d` at its destination. -/
def normFrom (d : (⟨S50000, .f32⟩ : BufTy).Contents (Elt F)) (s t : (⟨S850000, .i32⟩ : BufTy).Contents (Elt F)) :
    (⟨S850000, .f32⟩ : BufTy).Contents (Elt F) :=
  mulf (Host.gather gather_S50000_S850000x1_S850000_n_0_n_n_0_1_1 d (wrapCol s))
    (Host.gather gather_S50000_S850000x1_S850000_n_0_n_n_0_1_1 d (wrapCol t))

/-- The weight of every edge: dinv at its source times dinv at its destination. -/
def normOf (e : (⟨S2x800000, .i32⟩ : BufTy).Contents (Elt F)) : (⟨S850000, .f32⟩ : BufTy).Contents (Elt F) :=
  normFrom (dinvOf e) (srcOf e) (dstOf e)

/-- The normalised aggregation of 128-wide rows: gather the source rows, scale each by its edge weight, sum into the
    destination rows. -/
def agg128 (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32)) (col (dstOf e))
    (mulf (Host.gather gather_S50000x128_S850000x1_S850000x128_1_0_n_n_0_1_1128 h (wrapCol (srcOf e)))
      (broadcastInDim S850000x128 ![0, 1] bcast_S850000x1_S850000x128_0_1
        (broadcastInDim S850000x1 ![0] bcast_S850000_S850000x1_0 (normOf e))))

/-- The same aggregation of 10-wide rows. -/
def agg10 (e : (⟨S2x800000, .i32⟩ : BufTy).Contents (Elt F)) (h : (⟨S50000x10, .f32⟩ : BufTy).Contents (Elt F)) :
    (⟨S50000x10, .f32⟩ : BufTy).Contents (Elt F) :=
  Host.scatterAdd scatter_S50000x10_S850000x1_S850000x10_1_0_0_1
    (broadcastInDim S50000x10 ![] bcast_S_S50000x10 (constant S_ .f32 0x00000000#32)) (col (dstOf e))
    (mulf (Host.gather gather_S50000x10_S850000x1_S850000x10_1_0_n_n_0_1_110 h (wrapCol (srcOf e)))
      (broadcastInDim S850000x10 ![0, 1] bcast_S850000x1_S850000x10_0_1
        (broadcastInDim S850000x1 ![0] bcast_S850000_S850000x1_0 (normOf e))))

/-- The mean over the nodes of each of the 10 columns, as one row. -/
def meanOf (h : (⟨S50000x10, .f32⟩ : BufTy).Contents (Elt F)) : (⟨S1x10, .f32⟩ : BufTy).Contents (Elt F) :=
  Host.divf (broadcastInDim S1x10 ![1] bcast_S10_S1x10_1 (Host.reduceAdd h (constant S_ .f32 0x00000000#32) reducesTo_S50000x10_S10_d0 h_S_))
    (broadcastInDim S1x10 ![] bcast_S_S1x10 (constant S_ .f32 0x47435000#32))

/-- A row shifted by its maximum. -/
def shifted (p : (⟨S1x10, .f32⟩ : BufTy).Contents (Elt F)) : (⟨S1x10, .f32⟩ : BufTy).Contents (Elt F) :=
  subf p (broadcastInDim S1x10 ![0, 1] bcast_S1x1_S1x10_0_1 (broadcastInDim S1x1 ![0] bcast_S1_S1x1_0
    (maximumf (broadcastInDim S1 ![] bcast_S_S1 (constant S_ .f32 0xFF800000#32))
      (Host.reduce FloatOps.maximumf p (constant S_ .f32 0xFF800000#32) reducesTo_S1x10_S1_d1 h_S_))))

/-- The log-softmax of a row: the shifted row minus the log of the sum of its exponentials. -/
def logSoftmax (p : (⟨S1x10, .f32⟩ : BufTy).Contents (Elt F)) : (⟨S1x10, .f32⟩ : BufTy).Contents (Elt F) :=
  subf (shifted p) (broadcastInDim S1x10 ![0, 1] bcast_S1x1_S1x10_0_1 (Host.log (broadcastInDim S1x1 ![0] bcast_S1_S1x1_0
    (Host.reduceAdd (Host.exp (shifted p)) (constant S_ .f32 0x00000000#32) reducesTo_S1x10_S1_d1 h_S_))))

/-- A bias vector as one row. -/
def row128 (b : (⟨S128, .f32⟩ : BufTy).Contents (Elt F)) : (⟨S1x128, .f32⟩ : BufTy).Contents (Elt F) :=
  shapeCast _ b shapeCasts_S128_S1x128

def row10 (b : (⟨S10, .f32⟩ : BufTy).Contents (Elt F)) : (⟨S1x10, .f32⟩ : BufTy).Contents (Elt F) :=
  shapeCast _ b shapeCasts_S10_S1x10

/-! ## The dense parts, on the extended reals -/

/-- A bias row added to every row, then max(·, 0). -/
def biasRelu (a : S50000x128.Idx → EReal) (b : S1x128.Idx → EReal) : S50000x128.Idx → EReal :=
  fun i => max (a i + b (ix2 (0 : Fin 1) (i 1))) 0

/-- A bias row added to every row. -/
def bias (a : S50000x10.Idx → EReal) (b : S1x10.Idx → EReal) : S50000x10.Idx → EReal :=
  fun i => a i + b (ix2 (0 : Fin 1) (i 1))

/-- The whole network. -/
def net (x : S50000x128.Idx → EReal) (e : (⟨S2x800000, .i32⟩ : BufTy).Contents (Elt Ideal))
    (w1 : S128x128.Idx → EReal) (b1 : S128.Idx → EReal) (w2 : S128x128.Idx → EReal) (b2 : S128.Idx → EReal)
    (w3 : S128x10.Idx → EReal) (b3 : S10.Idx → EReal) : S1x10.Idx → EReal :=
  logSoftmax (F := Ideal) (meanOf (F := Ideal)
    (bias (agg10 (F := Ideal) e (ExactProduct.mm
      (biasRelu (agg128 (F := Ideal) e (ExactProduct.mm
        (biasRelu (agg128 (F := Ideal) e (ExactProduct.mm x w1)) (row128 (F := Ideal) b1)) w2)) (row128 (F := Ideal) b2)) w3))
      (row10 (F := Ideal) b3)))

end Cert.KernelIdeal.Spec

end
-- ==== Proof.RegionLinear.lean ====
/-
  The three matrix-product grids of the idealized program, read as arrays.

  Each grid has 10 points. Point t holds rows 5000·t … 5000·t + 4999 of the left array, the whole right array, and the
  same rows of the output. The body rounds both blocks to bf16, which is the identity on the extended reals, and
  multiplies them into a zero accumulator, so entry (r, q) of the block it writes back is
      Σ_k left(5000·t + r, k) · right(k, q),
  the entry at row 5000·t + r, column q of the exact product of the two arrays. The 10 blocks of 5000 rows tile the
  50000 rows, so after the grid the output array is the exact product: 50000×128 by 128×128 for the first two layers,
  50000×128 by 128×10 for the last.
-/
import proofs.«103406_j31817117729398_1_alg».proof.Proof.Gen.KernelIdeal.Frame
import proofs.«103406_j31817117729398_1_alg».proof.Proof.Spec
import proofs.«103406_j31817117729398_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearValue

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The zero offsets of a whole-block access, as the constant function. -/
theorem zeroOffsets : (![0, 0] : Fin 2 → Nat) = fun _ => 0 := funext fun a => by fin_cases a <;> rfl

/-- An entry of the exact product from its row and its column given position by position. -/
theorem productEntry {M K N : ℕ} (X : (⟨2, ![M, K]⟩ : Shape).Idx → EReal) (W : (⟨2, ![K, N]⟩ : Shape).Idx → EReal)
    (i : (⟨2, ![M, N]⟩ : Shape).Idx) (f g : Fin K → EReal) (hf : ∀ k, f k = X (ix2 (i 0) k))
    (hg : ∀ k, g k = W (ix2 k (i 1))) : ∑ k : Fin K, f k * g k = ExactProduct.mm X W i :=
  Finset.sum_congr rfl fun k _ => by rw [hf k, hg k]

/-! ## Grid 0: the first layer's product, 50000×128 by 128×128 -/

/-- Entry (r, q) of a block's product: row r of the left block against column q of the right block, summed over the
    128 shared positions. Rounding the operands to bf16 changes nothing on the extended reals. -/
theorem blockProduct0 (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  exact PlainMatmul.apply_zero (M := 5000) (K := 128) (N := 128) (φ₁ := .bf16) (φ₂ := .bf16) x0 x1 r q

/-- The block positions over the grid: the left block and the output block of point t are the same block of rows, the
    right operand is always its one whole block, and the row-block number stays below 10. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the 10 row blocks of the output is some point's. -/
theorem blockOnto0 : ∀ q : Fin 10, ∃ t : Fin cfg0.N, win0_2.index t = ![q.val, 0] :=
  (by decide +kernel : ∀ q : Fin 10, ∃ t : Fin grid0.N, win0_2.index t = ![q.val, 0])

/-- The left block of point t, at (y₀, y₁), is the left array at row (block number)·5000 + y₀, column y₁. -/
theorem leftBlock0 (c : Dev nD) (t : Fin cfg0.N) (y : S5000x128.Idx) (i : S50000x128.Idx)
    (h0 : (i 0).val = win0_2.index t (0 : Fin 2) * 5000 + (y 0).val) (h1 : (i 1).val = (y 1).val) :
    iblk0 V c 0 t y = V c main_arg0 i := by
  obtain ⟨e0, e1, -, -, -, -⟩ := blockIndex0 t
  show V c main_arg0 (((cfg0.win 0).blk t).view.emb y) = V c main_arg0 i
  refine congrArg (V c main_arg0) ?_
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The right block of every point is the whole right array. -/
theorem rightBlock0 (c : Dev nD) (t : Fin cfg0.N) (y : S128x128.Idx) : iblk0 V c 1 t y = V c main_arg2 y := by
  obtain ⟨-, -, e2, e3, -, -⟩ := blockIndex0 t
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is its block of rows of the exact product of the two arrays: entry (r, q) of the block is
    the sum over k of left(5000·t + r, k) · right(k, q). -/
theorem writtenBack0 (c : Dev nD) (t : Fin cfg0.N) :
    (dat0 (F := Ideal) V c).flushed 2 t
      = ((cfg0.win 2).blk t).view.read (Elt Ideal) (ExactProduct.mm (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  funext j
  obtain ⟨r, q, rfl⟩ : ∃ (r : Fin 5000) (q : Fin 128), j = ix2 r q := ⟨j 0, j 1, eq_ix2 j⟩
  show k0_pay1 (F := Ideal) (iblk0 V c 0 t) (iblk0 V c 1 t) (ix2 r q)
    = ExactProduct.mm (V c main_arg0) (V c main_arg2) (((cfg0.win 2).blk t).view.emb (ix2 r q))
  refine (blockProduct0 (iblk0 V c 0 t) (iblk0 V c 1 t) r q).trans ?_
  obtain ⟨-, -, -, -, e4, -⟩ := blockIndex0 t
  refine productEntry (V c main_arg0) (V c main_arg2) (((cfg0.win 2).blk t).view.emb (ix2 r q))
    (fun k => iblk0 V c 0 t (ix2 r k)) (fun k => iblk0 V c 1 t (ix2 k q))
    (fun k => leftBlock0 V c t (ix2 r k) _ ?_ ?_)
    (fun k => (rightBlock0 V c t (ix2 k q)).trans (congrArg (V c main_arg2) ?_))
  · show win0_2.index t (0 : Fin 2) * 5000 + 1 * r.val = win0_2.index t (0 : Fin 2) * 5000 + r.val; omega
  · rfl
  · funext a; apply Fin.ext
    match a with
    | ⟨0, _⟩ => rfl
    | ⟨1, _⟩ => show q.val = win0_2.index t (1 : Fin 2) * 128 + 1 * q.val; omega

/-- A row-and-column position lies in point t's output block iff, on each axis, it lies in the block's range. -/
theorem inBlock0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The 10 blocks of 5000 rows tile the 50000 rows: row i₀ lies in the block numbered i₀ / 5000. -/
theorem rowsCovered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [inBlock0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the grid the output array is the exact product of the two input arrays. -/
theorem final0 (c : Dev nD) : (dat0 (F := Ideal) V c).arrAt 2 cfg0.N = ExactProduct.mm (V c main_arg0) (V c main_arg2) :=
  (dat0 (F := Ideal) V c).arrAt_eq_of_cover 2 _ (fun t _ => writtenBack0 V c t) (rowsCovered0)

/-! ## Grid 2: the second layer's product, 50000×128 by 128×128 -/

/-- Entry (r, q) of a block's product: row r of the left block against column q of the right block, summed over the
    128 shared positions. Rounding the operands to bf16 changes nothing on the extended reals, and neither does
    the reshape of the left block to its own shape. -/
theorem blockProduct2 (x0 : Vec Ideal S5000x128 .f32) (x1 : Vec Ideal S128x128 .f32) (r : Fin 5000) (q : Fin 128) :
    k2_pay1 (F := Ideal) x0 x1 (ix2 r q) = ∑ k : Fin 128, x0 (ix2 r k) * x1 (ix2 k q) := by
  unfold k2_pay1
  rw [shapeCast_self]
  exact PlainMatmul.apply_zero (M := 5000) (K := 128) (N := 128) (φ₁ := .bf16) (φ₂ := .bf16) x0 x1 r q

/-- The block positions over the grid: the left block and the output block of point t are the same block of rows, the
    right operand is always its one whole block, and the row-block number stays below 10. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Each of the 10 row blocks of the output is some point's. -/
theorem blockOnto2 : ∀ q : Fin 10, ∃ t : Fin cfg2.N, win2_2.index t = ![q.val, 0] :=
  (by decide +kernel : ∀ q : Fin 10, ∃ t : Fin grid2.N, win2_2.index t = ![q.val, 0])

/-- The left block of point t, at (y₀, y₁), is the left array at row (block number)·5000 + y₀, column y₁. -/
theorem leftBlock2 (c : Dev nD) (t : Fin cfg2.N) (y : S5000x128.Idx) (i : S50000x128.Idx)
    (h0 : (i 0).val = win2_2.index t (0 : Fin 2) * 5000 + (y 0).val) (h1 : (i 1).val = (y 1).val) :
    iblk2 V c 0 t y = V c main_v45 i := by
  obtain ⟨e0, e1, -, -, -, -⟩ := blockIndex2 t
  show V c main_v45 (((cfg2.win 0).blk t).view.emb y) = V c main_v45 i
  refine congrArg (V c main_v45) ?_
  funext a; apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The right block of every point is the whole right array. -/
theorem rightBlock2 (c : Dev nD) (t : Fin cfg2.N) (y : S128x128.Idx) : iblk2 V c 1 t y = V c main_arg4 y := by
  obtain ⟨-, -, e2, e3, -, -⟩ := blockIndex2 t
  show V c main_arg4 (((cfg2.win 1).blk t).view.emb y) = V c main_arg4 y
  refine congrArg (V c main_arg4) ?_
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point t writes back is its block of rows of the exact product of the two arrays: entry (r, q) of the block is
    the sum over k of left(5000·t + r, k) · right(k, q). -/
theorem writtenBack2 (c : Dev nD) (t : Fin cfg2.N) :
    (dat2 (F := Ideal) V c).flushed 2 t
      = ((cfg2.win 2).blk t).view.read (Elt Ideal) (ExactProduct.mm (V c main_v45) (V c main_arg4)) := by
  show (cfg2.win 2).cut (grid2.coords t) ((dat2 (F := Ideal) V c).after 2 t) = _
  rw [after2_2]
  unfold out2_2
  rw [View.canon_unit_zero zeroOffsets]
  simp only [View.ld_unit_zero (S := S5000x128) zeroOffsets, View.ld_unit_zero (S := S128x128) zeroOffsets]
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (ix2 r q)
    = ExactProduct.mm (V c main_v45) (V c main_arg4) (((cfg2.win 2).blk t).view.emb (ix2 r q))
  refine (blockProduct2 (iblk2 V c 0 t) (iblk2 V c 1 t) r q).trans ?_
  obtain ⟨-, -, -, -, e4, -⟩ := blockIndex2 t
  refine productEntry (V c main_v45) (V c main_arg4) (((cfg2.win 2).blk t).view.emb (ix2 r q))
    (fun k => iblk2 V c 0 t (ix2 r k)) (fun k => iblk2 V c 1 t (ix2 k q))
    (fun k => leftBlock2 V c t (ix2 r k) _ ?_ ?_)
    (fun k => (rightBlock2 V c t (ix2 k q)).trans (congrArg (V c main_arg4) ?_))
  · show win2_2.index t (0 : Fin 2) * 5000 + 1 * r.val = win2_2.index t (0 : Fin 2) * 5000 + r.val; omega
  · rfl
  · funext a; apply Fin.ext
    match a with
    | ⟨0, _⟩ => rfl
    | ⟨1, _⟩ => show q.val = win2_2.index t (1 : Fin 2) * 128 + 1 * q.val; omega

/-- A row-and-column position lies in point t's output block iff, on each axis, it lies in the block's range. -/
theorem inBlock2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The 10 blocks of 5000 rows tile the 50000 rows: row i₀ lies in the block numbered i₀ / 5000. -/
theorem rowsCovered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [inBlock2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the grid the output array is the exact product of the two input arrays. -/
theorem final2 (c : Dev nD) : (dat2 (F := Ideal) V c).arrAt 2 cfg2.N = ExactProduct.mm (V c main_v45) (V c main_arg4) :=
  (dat2 (F := Ideal) V c).arrAt_eq_of_cover 2 _ (fun t _ => writtenBack2 V c t) (rowsCovered2)

/-! ## Grid 4: the last layer's product, 50000×128 by 128×10 -/

/-- Entry (r, q) of a block's product: row r of the left block against column q of the right block, summed over the
    128 shared positions. Rounding the operands to bf16 changes nothing on the extended reals, and neither does
    the reshape of the left block to its own shape. -/
theorem blockProduct4 (x0 : Vec Ideal S5000x128 .f32) (x1 : Vec Ideal S128x10 .f32) (r : Fin 5000) (q : Fin 10) :
    k4_pay1 (F := Ideal) x0 x1 (ix2 r q) = ∑ k : Fin 128, x0 (ix2 r k) * x1 (ix2 k q) := by
  unfold k4_pay1
  rw [shapeCast_self]
  exact PlainMatmul.apply_zero (M := 5000) (K := 128) (N := 10) (φ₁ := .bf16) (φ₂ := .bf16) x0 x1 r q

/-- The block positions over the grid: the left block and the output block of point t are the same block of rows, the
    right operand is always its one whole block, and the row-block number stays below 10. -/
theorem blockIndex4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Each of the 10 row blocks of the output is some point's. -/
theorem blockOnto4 : ∀ q : Fin 10, ∃ t : Fin cfg4.N, win4_2.index t = ![q.val, 0] :=
  (by decide +kernel : ∀ q : Fin 10, ∃ t : Fin grid4.N, win4_2.index t = ![q.val, 0])

/-- The left block of point t, at (y₀, y₁), is the left array at row (block number)·5000 + y₀, column y₁. -/
theorem leftBlock4 (c : Dev nD) (t : Fin cfg4.N) (y : S5000x128.Idx) (i : S50000x128.Idx)
    (h0 : (i 0).val = win4_2.index t (0 : Fin 2) * 5000 + (y 0).val) (h1 : (i 1).val = (y 1).val) :
    iblk4 V c 0 t y = V c main_v61 i := by
  obtain ⟨e0, e1, -, -, -, -⟩ := blockIndex4 t
  show V c main_v61 (((cfg4.win 0).blk t).view.emb y) = V c main_v61 i
  refine congrArg (V c main_v61) ?_
  funext a; apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The right block of every point is the whole right array. -/
theorem rightBlock4 (c : Dev nD) (t : Fin cfg4.N) (y : S128x10.Idx) : iblk4 V c 1 t y = V c main_arg6 y := by
  obtain ⟨-, -, e2, e3, -, -⟩ := blockIndex4 t
  show V c main_arg6 (((cfg4.win 1).blk t).view.emb y) = V c main_arg6 y
  refine congrArg (V c main_arg6) ?_
  funext a; apply Fin.ext
  match a with
  | ⟨0, _⟩ => show win4_1.index t (0 : Fin 2) * 128 + 1 * (y 0).val = (y 0).val; omega
  | ⟨1, _⟩ => show win4_1.index t (1 : Fin 2) * 10 + 1 * (y 1).val = (y 1).val; omega

/-- What point t writes back is its block of rows of the exact product of the two arrays: entry (r, q) of the block is
    the sum over k of left(5000·t + r, k) · right(k, q). -/
theorem writtenBack4 (c : Dev nD) (t : Fin cfg4.N) :
    (dat4 (F := Ideal) V c).flushed 2 t
      = ((cfg4.win 2).blk t).view.read (Elt Ideal) (ExactProduct.mm (V c main_v61) (V c main_arg6)) := by
  show (cfg4.win 2).cut (grid4.coords t) ((dat4 (F := Ideal) V c).after 2 t) = _
  rw [after4_2]
  unfold out4_2
  rw [View.canon_unit_zero zeroOffsets]
  simp only [View.ld_unit_zero (S := S5000x128) zeroOffsets, View.ld_unit_zero (S := S128x10) zeroOffsets]
  funext j
  obtain ⟨r, q, rfl⟩ : ∃ (r : Fin 5000) (q : Fin 10), j = ix2 r q := ⟨j 0, j 1, eq_ix2 j⟩
  show k4_pay1 (F := Ideal) (iblk4 V c 0 t) (iblk4 V c 1 t) (ix2 r q)
    = ExactProduct.mm (V c main_v61) (V c main_arg6) (((cfg4.win 2).blk t).view.emb (ix2 r q))
  refine (blockProduct4 (iblk4 V c 0 t) (iblk4 V c 1 t) r q).trans ?_
  obtain ⟨-, -, -, -, e4, -⟩ := blockIndex4 t
  refine productEntry (V c main_v61) (V c main_arg6) (((cfg4.win 2).blk t).view.emb (ix2 r q))
    (fun k => iblk4 V c 0 t (ix2 r k)) (fun k => iblk4 V c 1 t (ix2 k q))
    (fun k => leftBlock4 V c t (ix2 r k) _ ?_ ?_)
    (fun k => (rightBlock4 V c t (ix2 k q)).trans (congrArg (V c main_arg6) ?_))
  · show win4_2.index t (0 : Fin 2) * 5000 + 1 * r.val = win4_2.index t (0 : Fin 2) * 5000 + r.val; omega
  · rfl
  · funext a; apply Fin.ext
    match a with
    | ⟨0, _⟩ => rfl
    | ⟨1, _⟩ => show q.val = win4_2.index t (1 : Fin 2) * 10 + 1 * q.val; omega

/-- A row-and-column position lies in point t's output block iff, on each axis, it lies in the block's range. -/
theorem inBlock4 (t : Fin cfg4.N) (i : S50000x10.Idx) :
    i ∈ ((cfg4.win 2).blk t).view.set ↔ ∀ a : Fin 2, win4_2.index t a * S5000x10.size a ≤ (i a).val
      ∧ (i a).val < win4_2.index t a * S5000x10.size a + S5000x10.size a := by
  show i ∈ ((View.whole main_v62).slice (win4_2.rect t)).set ↔ _
  rw [View.set_slice_whole, Rect.mem_set_unit]
  exact Iff.rfl

/-- The 10 blocks of 5000 rows tile the 50000 rows: row i₀ lies in the block numbered i₀ / 5000. -/
theorem rowsCovered4 (i : S50000x10.Idx) :
    ∃ t : Fin cfg4.N, (cfg4.win 2).flush t = true ∧ i ∈ ((cfg4.win 2).blk t).view.set := by
  have hi0 : (i 0).val < 50000 := (i 0).isLt
  have hi1 : (i 1).val < 10 := (i 1).isLt
  obtain ⟨t, ht⟩ := blockOnto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [inBlock4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 10 ≤ (i 1).val ∧ (i 1).val < win4_2.index t (1 : Fin 2) * 10 + 10
    omega

/-- After the grid the output array is the exact product of the two input arrays. -/
theorem final4 (c : Dev nD) : (dat4 (F := Ideal) V c).arrAt 2 cfg4.N = ExactProduct.mm (V c main_v61) (V c main_arg6) :=
  (dat4 (F := Ideal) V c).arrAt_eq_of_cover 2 _ (fun t _ => writtenBack4 V c t) (rowsCovered4)

end Cert.KernelIdeal.LinearValue

end
-- ==== Proof.RegionBias.lean ====
/-
  The three bias grids of the kernel program, read as whole-array functions.

  Each grid has 10 points. Point t stages rows 5000·t … 5000·t + 4999 of the input array, the whole bias row, and
  writes back the same rows of the output array. The body adds the bias row to every row of its block (and, in the
  first two grids, takes the maximum with 0). So entry (r, c) of block t is  max (a (5000·t + r, c) + b (0, c)) 0
  (the last grid: without the maximum), the 10 blocks tile the 50000 rows, and the output array after the grid is the
  input array with the bias row added to every row (followed by max(·, 0)).

  Per grid: the index maps decided over the grid's points; one element of the body's result from the elements it reads;
  what a point writes back, as its block of the whole-array function; the blocks cover the array; the array after the grid.
-/
import proofs.«103406_j31817117729398_1_alg».proof.Proof.Gen.KernelIdeal.Frame
import proofs.«103406_j31817117729398_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasValue

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The zero offsets of a rank-2 rectangle, as the constant function. -/
theorem zeros2 : (![0, 0] : Fin 2 → Nat) = fun _ => 0 := funext fun a => by fin_cases a <;> rfl

/-! ## Grid 1: a [1,128] bias row added to every row of a [50000,128] array, then max(·, 0) -/

/-- One element of a block's result: the row's entry plus the bias entry of its column, then the maximum with 0
    (the splat word 0x00000000 is the real 0). -/
theorem pay1_apply (x0 : Vec Ideal S5000x128 .f32) (x1 : Vec Ideal S1x128 .f32) (r : Fin 5000) (c : Fin 128) :
    k1_pay1 x0 x1 (ix2 r c) = max (x0 (ix2 r c) + x1 (ix2 (0 : Fin 1) c)) 0 := by
  unfold k1_pay1
  simp only [shapeCast_self]
  refine (maximumf_apply _ _ _).trans ?_
  rw [broadcast_apply, addf_apply]
  rw [broadcastTo_1b_ab_apply]
  rw [show (Scalar.ofBits (F := Ideal) .f32 0x00000000#32) = Ideal.ofBits .f32 0x00000000#32 from rfl, Ideal.ofBits_zero_f32]

/-- The same element, from the elements of the two arrays the block's entries are. -/
theorem point1 (a : S50000x128.Idx → EReal) (b : S1x128.Idx → EReal)
    (x0 : Vec Ideal S5000x128 .f32) (x1 : Vec Ideal S1x128 .f32) (r : Fin 5000) (c : Fin 128) (i : S50000x128.Idx)
    (h0 : x0 (ix2 r c) = a i) (h1 : x1 (ix2 (0 : Fin 1) c) = b (ix2 (0 : Fin 1) (i 1))) :
    k1_pay1 x0 x1 (ix2 r c) = Spec.biasRelu a b i := by
  rw [pay1_apply, h0, h1]; rfl

/-- The index maps, decided over the grid: the input block moves with the output block along the rows, the bias
    block stays at (0, 0), no block moves along the columns, and the output's row-block index is at most 9. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the 10 row blocks is some point's output block. -/
theorem idx_onto1 : ∀ q : Fin 10, ∃ t : Fin cfg1.N, win1_2.index t = ![q.val, 0] :=
  (by decide +kernel : ∀ q : Fin 10, ∃ t : Fin grid1.N, win1_2.index t = ![q.val, 0])

/-- The input window's block at a point, read off the input array. -/
theorem iblk1_0_apply (c : Dev nD) (t : Fin cfg1.N) (y : S5000x128.Idx) :
    iblk1 (F := Ideal) V c 0 t y = V c main_v43 (((cfg1.win 0).blk t).view.emb y) := by
  show _ = _; rfl

/-- The bias window's block at a point, read off the bias row. -/
theorem iblk1_1_apply (c : Dev nD) (t : Fin cfg1.N) (y : S1x128.Idx) :
    iblk1 (F := Ideal) V c 1 t y = V c main_v44 (((cfg1.win 1).blk t).view.emb y) := by
  show _ = _; rfl

/-- What point `t` writes back is block `t` of the whole-array function. -/
theorem flushed1_eq (c : Dev nD) (t : Fin cfg1.N) :
    (dat1 (F := Ideal) V c).flushed 2 t = ((cfg1.win 2).blk t).view.read (Elt Ideal)
      (Spec.biasRelu (V c main_v43) (V c main_v44)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := idx_facts1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Spec.biasRelu (V c main_v43) (V c main_v44) (((cfg1.win 2).blk t).view.emb (ix2 p q))
  refine point1 _ _ (iblk1 V c 0 t) (iblk1 V c 1 t) p q _ ?_ ?_
  · -- the input block's entry (p, q) is the array's entry (5000·index + p, q), as the output block's is
    refine (iblk1_0_apply V c t (ix2 p q)).trans (congrArg (V c main_v43) ?_)
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  · -- the bias block is the whole bias row
    refine (iblk1_1_apply V c t (ix2 0 q)).trans (congrArg (V c main_v44) ?_)
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The blocks tile the rows: row r is in the block of the point whose row-block index is r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after grid 1: the input array with the bias row added to every row, then max(·, 0). -/
theorem final1 (c : Dev nD) : (dat1 (F := Ideal) V c).arrAt 2 cfg1.N = Spec.biasRelu (V c main_v43) (V c main_v44) :=
  (dat1 V c).arrAt_eq_of_cover 2 _ (fun t _ => flushed1_eq V c t) (cover1)

/-! ## Grid 3: a [1,128] bias row added to every row of a [50000,128] array, then max(·, 0) -/

/-- One element of a block's result: the row's entry plus the bias entry of its column, then the maximum with 0
    (the splat word 0x00000000 is the real 0). -/
theorem pay3_apply (x0 : Vec Ideal S5000x128 .f32) (x1 : Vec Ideal S1x128 .f32) (r : Fin 5000) (c : Fin 128) :
    k3_pay1 x0 x1 (ix2 r c) = max (x0 (ix2 r c) + x1 (ix2 (0 : Fin 1) c)) 0 := by
  unfold k3_pay1
  simp only [shapeCast_self]
  refine (maximumf_apply _ _ _).trans ?_
  rw [broadcast_apply, addf_apply]
  rw [broadcastTo_1b_ab_apply]
  rw [show (Scalar.ofBits (F := Ideal) .f32 0x00000000#32) = Ideal.ofBits .f32 0x00000000#32 from rfl, Ideal.ofBits_zero_f32]

/-- The same element, from the elements of the two arrays the block's entries are. -/
theorem point3 (a : S50000x128.Idx → EReal) (b : S1x128.Idx → EReal)
    (x0 : Vec Ideal S5000x128 .f32) (x1 : Vec Ideal S1x128 .f32) (r : Fin 5000) (c : Fin 128) (i : S50000x128.Idx)
    (h0 : x0 (ix2 r c) = a i) (h1 : x1 (ix2 (0 : Fin 1) c) = b (ix2 (0 : Fin 1) (i 1))) :
    k3_pay1 x0 x1 (ix2 r c) = Spec.biasRelu a b i := by
  rw [pay3_apply, h0, h1]; rfl

/-- The index maps, decided over the grid: the input block moves with the output block along the rows, the bias
    block stays at (0, 0), no block moves along the columns, and the output's row-block index is at most 9. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the 10 row blocks is some point's output block. -/
theorem idx_onto3 : ∀ q : Fin 10, ∃ t : Fin cfg3.N, win3_2.index t = ![q.val, 0] :=
  (by decide +kernel : ∀ q : Fin 10, ∃ t : Fin grid3.N, win3_2.index t = ![q.val, 0])

/-- The input window's block at a point, read off the input array. -/
theorem iblk3_0_apply (c : Dev nD) (t : Fin cfg3.N) (y : S5000x128.Idx) :
    iblk3 (F := Ideal) V c 0 t y = V c main_v59 (((cfg3.win 0).blk t).view.emb y) := by
  show _ = _; rfl

/-- The bias window's block at a point, read off the bias row. -/
theorem iblk3_1_apply (c : Dev nD) (t : Fin cfg3.N) (y : S1x128.Idx) :
    iblk3 (F := Ideal) V c 1 t y = V c main_v60 (((cfg3.win 1).blk t).view.emb y) := by
  show _ = _; rfl

/-- What point `t` writes back is block `t` of the whole-array function. -/
theorem flushed3_eq (c : Dev nD) (t : Fin cfg3.N) :
    (dat3 (F := Ideal) V c).flushed 2 t = ((cfg3.win 2).blk t).view.read (Elt Ideal)
      (Spec.biasRelu (V c main_v59) (V c main_v60)) := by
  show (cfg3.win 2).cut (grid3.coords t) ((dat3 V c).after 2 t) = _
  rw [after3_2]
  unfold out3_2
  rw [View.canon_unit_zero zeros2]
  simp only [View.ld_unit_zero (S := S5000x128) zeros2, View.ld_unit_zero (S := S1x128) zeros2]
  obtain ⟨e0, e1, e2, e3, e4, e5⟩ := idx_facts3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Spec.biasRelu (V c main_v59) (V c main_v60) (((cfg3.win 2).blk t).view.emb (ix2 p q))
  refine point3 _ _ (iblk3 V c 0 t) (iblk3 V c 1 t) p q _ ?_ ?_
  · -- the input block's entry (p, q) is the array's entry (5000·index + p, q), as the output block's is
    refine (iblk3_0_apply V c t (ix2 p q)).trans (congrArg (V c main_v59) ?_)
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · -- the bias block is the whole bias row
    refine (iblk3_1_apply V c t (ix2 0 q)).trans (congrArg (V c main_v60) ?_)
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- The blocks tile the rows: row r is in the block of the point whose row-block index is r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after grid 3: the input array with the bias row added to every row, then max(·, 0). -/
theorem final3 (c : Dev nD) : (dat3 (F := Ideal) V c).arrAt 2 cfg3.N = Spec.biasRelu (V c main_v59) (V c main_v60) :=
  (dat3 V c).arrAt_eq_of_cover 2 _ (fun t _ => flushed3_eq V c t) (cover3)

/-! ## Grid 5: a [1,10] bias row added to every row of a [50000,10] array -/

/-- One element of a block's result: the row's entry plus the bias entry of its column. -/
theorem pay5_apply (x0 : Vec Ideal S5000x10 .f32) (x1 : Vec Ideal S1x10 .f32) (r : Fin 5000) (c : Fin 10) :
    k5_pay1 x0 x1 (ix2 r c) = x0 (ix2 r c) + x1 (ix2 (0 : Fin 1) c) := by
  unfold k5_pay1
  simp only [shapeCast_self]
  refine (addf_apply _ _ _).trans ?_
  rw [broadcastTo_1b_ab_apply]

/-- The same element, from the elements of the two arrays the block's entries are. -/
theorem point5 (a : S50000x10.Idx → EReal) (b : S1x10.Idx → EReal)
    (x0 : Vec Ideal S5000x10 .f32) (x1 : Vec Ideal S1x10 .f32) (r : Fin 5000) (c : Fin 10) (i : S50000x10.Idx)
    (h0 : x0 (ix2 r c) = a i) (h1 : x1 (ix2 (0 : Fin 1) c) = b (ix2 (0 : Fin 1) (i 1))) :
    k5_pay1 x0 x1 (ix2 r c) = Spec.bias a b i := by
  rw [pay5_apply, h0, h1]; rfl

/-- The index maps, decided over the grid: the input block moves with the output block along the rows, the bias
    block stays at (0, 0), no block moves along the columns, and the output's row-block index is at most 9. -/
theorem idx_facts5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the 10 row blocks is some point's output block. -/
theorem idx_onto5 : ∀ q : Fin 10, ∃ t : Fin cfg5.N, win5_2.index t = ![q.val, 0] :=
  (by decide +kernel : ∀ q : Fin 10, ∃ t : Fin grid5.N, win5_2.index t = ![q.val, 0])

/-- The input window's block at a point, read off the input array. -/
theorem iblk5_0_apply (c : Dev nD) (t : Fin cfg5.N) (y : S5000x10.Idx) :
    iblk5 (F := Ideal) V c 0 t y = V c main_v75 (((cfg5.win 0).blk t).view.emb y) := by
  show _ = _; rfl

/-- The bias window's block at a point, read off the bias row. -/
theorem iblk5_1_apply (c : Dev nD) (t : Fin cfg5.N) (y : S1x10.Idx) :
    iblk5 (F := Ideal) V c 1 t y = V c main_v76 (((cfg5.win 1).blk t).view.emb y) := by
  show _ = _; rfl

/-- What point `t` writes back is block `t` of the whole-array function. -/
theorem flushed5_eq (c : Dev nD) (t : Fin cfg5.N) :
    (dat5 (F := Ideal) V c).flushed 2 t = ((cfg5.win 2).blk t).view.read (Elt Ideal)
      (Spec.bias (V c main_v75) (V c main_v76)) := by
  show (cfg5.win 2).cut (grid5.coords t) ((dat5 V c).after 2 t) = _
  rw [after5_2]
  unfold out5_2
  rw [View.canon_unit_zero zeros2]
  simp only [View.ld_unit_zero (S := S5000x10) zeros2, View.ld_unit_zero (S := S1x10) zeros2]
  obtain ⟨e0, e1, e2, e3, e4, e5⟩ := idx_facts5 t
  funext j
  obtain ⟨p, q, rfl⟩ : ∃ (p : Fin 5000) (q : Fin 10), j = ix2 p q := ⟨j 0, j 1, eq_ix2 j⟩
  show k5_pay1 (iblk5 V c 0 t) (iblk5 V c 1 t) (ix2 p q)
    = Spec.bias (V c main_v75) (V c main_v76) (((cfg5.win 2).blk t).view.emb (ix2 p q))
  refine point5 _ _ (iblk5 V c 0 t) (iblk5 V c 1 t) p q _ ?_ ?_
  · -- the input block's entry (p, q) is the array's entry (5000·index + p, q), as the output block's is
    refine (iblk5_0_apply V c t (ix2 p q)).trans (congrArg (V c main_v75) ?_)
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 10 + 1 * q.val = win5_2.index t (1 : Fin 2) * 10 + 1 * q.val; omega
  · -- the bias block is the whole bias row
    refine (iblk5_1_apply V c t (ix2 0 q)).trans (congrArg (V c main_v76) ?_)
    funext a; apply Fin.ext
    match a with
    | ⟨0, _⟩ => show win5_1.index t (0 : Fin 2) * 1 + 1 * 0 = 0; omega
    | ⟨1, _⟩ => show win5_1.index t (1 : Fin 2) * 10 + 1 * q.val = win5_2.index t (1 : Fin 2) * 10 + 1 * q.val; omega

/-- An index of the output array is in point `t`'s block iff each coordinate is in the block's range on its axis. -/
theorem mem_blk5 (t : Fin cfg5.N) (i : S50000x10.Idx) :
    i ∈ ((cfg5.win 2).blk t).view.set ↔ ∀ a : Fin 2, win5_2.index t a * S5000x10.size a ≤ (i a).val
      ∧ (i a).val < win5_2.index t a * S5000x10.size a + S5000x10.size a := by
  show i ∈ ((View.whole main_v77).slice (win5_2.rect t)).set ↔ _
  rw [View.set_slice_whole, Rect.mem_set_unit]
  exact Iff.rfl

/-- The blocks tile the rows: row r is in the block of the point whose row-block index is r / 5000. -/
theorem cover5 (i : S50000x10.Idx) :
    ∃ t : Fin cfg5.N, (cfg5.win 2).flush t = true ∧ i ∈ ((cfg5.win 2).blk t).view.set := by
  have hi0 : (i 0).val < 50000 := (i 0).isLt
  have hi1 : (i 1).val < 10 := (i 1).isLt
  obtain ⟨t, ht⟩ := idx_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 10 ≤ (i 1).val ∧ (i 1).val < win5_2.index t (1 : Fin 2) * 10 + 10; omega

/-- THE OUTPUT ARRAY after grid 5: the input array with the bias row added to every row. -/
theorem final5 (c : Dev nD) : (dat5 (F := Ideal) V c).arrAt 2 cfg5.N = Spec.bias (V c main_v75) (V c main_v76) :=
  (dat5 V c).arrAt_eq_of_cover 2 _ (fun t _ => flushed5_eq V c t) (cover5)

end Cert.KernelIdeal.BiasValue

end
-- ==== Proof.KernelValue.lean ====
/-
  The idealized kernel program's result as the network's value of its arguments.

  The program is fourteen segments: stretches of host operations (the edge quantities; per layer a gather of the
  source rows, the scaling by the edge weights and the scatter-add into the destination rows; at the end the mean and
  the log-softmax) and six grids of block computations (per layer a matrix product, then a bias row added to every row,
  with max(·, 0) after the first two). The buffer contents are followed from the launch memory through the segments:
  a buffer that a segment does not write keeps its contents; a host operation's result is its function of its operands'
  contents; a grid's output array is the whole-array function of its input arrays.
-/
import proofs.«103406_j31817117729398_1_alg».proof.Proof.Gen.KernelIdeal.Frame
import proofs.«103406_j31817117729398_1_alg».proof.Proof.Spec
import proofs.«103406_j31817117729398_1_alg».proof.Proof.RegionLinear
import proofs.«103406_j31817117729398_1_alg».proof.Proof.RegionBias
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- A buffer that no operation of a stretch of host operations writes keeps its contents across the stretch. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Before the first grid: the edge quantities, and the arguments as launched

Each stretch of host operations is read once from ANY contents `V` of the buffers; the stretches are then chained. -/

section Stretches
variable (V : Valuation τ sig (Elt Ideal))

theorem first_src : StableHlo.after hostOps0 V (Proc.devRef .tc main_v5) = Spec.srcOf (V (Proc.devRef .tc main_arg1)) := by
  after_results_simp
  rfl

theorem first_dst : StableHlo.after hostOps0 V (Proc.devRef .tc main_v6) = Spec.dstOf (V (Proc.devRef .tc main_arg1)) := by
  after_results_simp
  rfl

theorem first_pos : StableHlo.after hostOps0 V (Proc.devRef .tc main_v12) = Spec.posDegOf (V (Proc.devRef .tc main_arg1)) := by
  after_results_simp
  rfl

theorem first_rsqrt : StableHlo.after hostOps0 V (Proc.devRef .tc main_v13) = Spec.rsqrtDegOf (V (Proc.devRef .tc main_arg1)) := by
  after_results_simp
  rfl

theorem first_zero : StableHlo.after hostOps0 V (Proc.devRef .tc main_cst_2) = Spec.zeroScalar (F := Ideal) := by
  after_results_simp
  rfl

theorem second_dinv : StableHlo.after hostOps0_1 V (Proc.devRef .tc main_v14)
    = Spec.dinvFrom (V (Proc.devRef .tc main_v12)) (V (Proc.devRef .tc main_v13)) (V (Proc.devRef .tc main_cst_2)) := by
  after_results_simp
  rfl

theorem third_norm : StableHlo.after hostOps0_2 V (Proc.devRef .tc main_v29)
    = Spec.normFrom (V (Proc.devRef .tc main_v14)) (V (Proc.devRef .tc main_v5)) (V (Proc.devRef .tc main_v6)) := by
  after_results_simp
  rfl

end Stretches

theorem w1_src : W1 m ρ c (Proc.devRef .tc main_v5) = Spec.srcOf (m ((c : Thread nD τ).loc main_arg1)) :=
  first_src (W0 m ρ c)

theorem w1_dst : W1 m ρ c (Proc.devRef .tc main_v6) = Spec.dstOf (m ((c : Thread nD τ).loc main_arg1)) :=
  first_dst (W0 m ρ c)

theorem w2_src : W2 m ρ c (Proc.devRef .tc main_v5) = Spec.srcOf (m ((c : Thread nD τ).loc main_arg1)) :=
  (show W2 m ρ c (Proc.devRef .tc main_v5) = W1 m ρ c (Proc.devRef .tc main_v5) by keep_host hostOps0_1).trans (w1_src m ρ c)

theorem w2_dst : W2 m ρ c (Proc.devRef .tc main_v6) = Spec.dstOf (m ((c : Thread nD τ).loc main_arg1)) :=
  (show W2 m ρ c (Proc.devRef .tc main_v6) = W1 m ρ c (Proc.devRef .tc main_v6) by keep_host hostOps0_1).trans (w1_dst m ρ c)

theorem w2_dinv : W2 m ρ c (Proc.devRef .tc main_v14) = Spec.dinvOf (m ((c : Thread nD τ).loc main_arg1)) := by
  refine (second_dinv (W1 m ρ c)).trans ?_
  rw [show W1 m ρ c (Proc.devRef .tc main_v12) = _ from first_pos (W0 m ρ c),
    show W1 m ρ c (Proc.devRef .tc main_v13) = _ from first_rsqrt (W0 m ρ c),
    show W1 m ρ c (Proc.devRef .tc main_cst_2) = _ from first_zero (W0 m ρ c)]
  rfl

theorem w3_src : W3 m ρ c (Proc.devRef .tc main_v5) = Spec.srcOf (m ((c : Thread nD τ).loc main_arg1)) :=
  (show W3 m ρ c (Proc.devRef .tc main_v5) = W2 m ρ c (Proc.devRef .tc main_v5) by keep_host hostOps0_2).trans (w2_src m ρ c)

theorem w3_dst : W3 m ρ c (Proc.devRef .tc main_v6) = Spec.dstOf (m ((c : Thread nD τ).loc main_arg1)) :=
  (show W3 m ρ c (Proc.devRef .tc main_v6) = W2 m ρ c (Proc.devRef .tc main_v6) by keep_host hostOps0_2).trans (w2_dst m ρ c)

theorem w3_norm : W3 m ρ c (Proc.devRef .tc main_v29) = Spec.normOf (m ((c : Thread nD τ).loc main_arg1)) := by
  refine (third_norm (W2 m ρ c)).trans ?_
  rw [w2_dinv, w2_src, w2_dst]
  rfl

theorem w3_arg0 : W3 m ρ c (Proc.devRef .tc main_arg0) = m ((c : Thread nD τ).loc main_arg0) :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = m ((c : Thread nD τ).loc main_arg0) := rfl

theorem w3_arg2 : W3 m ρ c (Proc.devRef .tc main_arg2) = m ((c : Thread nD τ).loc main_arg2) :=
  calc W3 m ρ c (Proc.devRef .tc main_arg2)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = m ((c : Thread nD τ).loc main_arg2) := rfl

theorem w3_arg3 : W3 m ρ c (Proc.devRef .tc main_arg3) = m ((c : Thread nD τ).loc main_arg3) :=
  calc W3 m ρ c (Proc.devRef .tc main_arg3)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = m ((c : Thread nD τ).loc main_arg3) := rfl

theorem w3_arg4 : W3 m ρ c (Proc.devRef .tc main_arg4) = m ((c : Thread nD τ).loc main_arg4) :=
  calc W3 m ρ c (Proc.devRef .tc main_arg4)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = m ((c : Thread nD τ).loc main_arg4) := rfl

theorem w3_arg5 : W3 m ρ c (Proc.devRef .tc main_arg5) = m ((c : Thread nD τ).loc main_arg5) :=
  calc W3 m ρ c (Proc.devRef .tc main_arg5)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = m ((c : Thread nD τ).loc main_arg5) := rfl

theorem w3_arg6 : W3 m ρ c (Proc.devRef .tc main_arg6) = m ((c : Thread nD τ).loc main_arg6) :=
  calc W3 m ρ c (Proc.devRef .tc main_arg6)
    _ = W2 m ρ c (Proc.devRef .tc main_arg6) := by keep_host hostOps0_2
    _ = W1 m ρ c (Proc.devRef .tc main_arg6) := by keep_host hostOps0_1
    _ = W0 m ρ c (Proc.devRef .tc main_arg6) := by keep_host hostOps0
    _ = m ((c : Thread nD τ).loc main_arg6) := rfl

theorem w3_arg7 : W3 m ρ c (Proc.devRef .tc main_arg7) = m ((c : Thread nD τ).loc main_arg7) :=
  calc W3 m ρ c (Proc.devRef .tc main_arg7)
    _ = W2 m ρ c (Proc.devRef .tc main_arg7) := by keep_host hostOps0_2
    _ = W1 m ρ c (Proc.devRef .tc main_arg7) := by keep_host hostOps0_1
    _ = W0 m ρ c (Proc.devRef .tc main_arg7) := by keep_host hostOps0
    _ = m ((c : Thread nD τ).loc main_arg7) := rfl

/-! ## The layers' values, named -/

/-- The first layer's output: max(A·(x·W1) + b1, 0). -/
def act1 : S50000x128.Idx → EReal :=
  Spec.biasRelu (Spec.agg128 (F := Ideal) (m ((c : Thread nD τ).loc main_arg1)) (ExactProduct.mm (m ((c : Thread nD τ).loc main_arg0)) (m ((c : Thread nD τ).loc main_arg2)))) (Spec.row128 (F := Ideal) (m ((c : Thread nD τ).loc main_arg3)))

/-- The second layer's output: max(A·(act1·W2) + b2, 0). -/
def act2 : S50000x128.Idx → EReal :=
  Spec.biasRelu (Spec.agg128 (F := Ideal) (m ((c : Thread nD τ).loc main_arg1)) (ExactProduct.mm (act1 m c) (m ((c : Thread nD τ).loc main_arg4)))) (Spec.row128 (F := Ideal) (m ((c : Thread nD τ).loc main_arg5)))

/-- The third layer's output: A·(act2·W3) + b3. -/
def act3 : S50000x10.Idx → EReal :=
  Spec.bias (Spec.agg10 (F := Ideal) (m ((c : Thread nD τ).loc main_arg1)) (ExactProduct.mm (act2 m c) (m ((c : Thread nD τ).loc main_arg6)))) (Spec.row10 (F := Ideal) (m ((c : Thread nD τ).loc main_arg7)))

theorem net_eq : Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    = Spec.logSoftmax (F := Ideal) (Spec.meanOf (F := Ideal) (act3 m c)) := rfl

/-! ## Layer 1 -/

theorem w4_src : W4 m ρ c (Proc.devRef .tc main_v5) = Spec.srcOf (m ((c : Thread nD τ).loc main_arg1)) :=
  (W4_of_ne m ρ c main_v5 (by decide)).trans (w3_src m ρ c)
theorem w4_dst : W4 m ρ c (Proc.devRef .tc main_v6) = Spec.dstOf (m ((c : Thread nD τ).loc main_arg1)) :=
  (W4_of_ne m ρ c main_v6 (by decide)).trans (w3_dst m ρ c)
theorem w4_norm : W4 m ρ c (Proc.devRef .tc main_v29) = Spec.normOf (m ((c : Thread nD τ).loc main_arg1)) :=
  (W4_of_ne m ρ c main_v29 (by decide)).trans (w3_norm m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)

theorem w4_lin1 : W4 m ρ c (Proc.devRef .tc main_v30) = ExactProduct.mm (m ((c : Thread nD τ).loc main_arg0)) (m ((c : Thread nD τ).loc main_arg2)) := by
  refine (W4_arr m ρ c 2).trans ?_
  rw [LinearValue.final0]
  show ExactProduct.mm (W3 m ρ c (Proc.devRef .tc main_arg0)) (W3 m ρ c (Proc.devRef .tc main_arg2)) = _
  rw [w3_arg0, w3_arg2]

theorem w5_src : W5 m ρ c (Proc.devRef .tc main_v5) = Spec.srcOf (m ((c : Thread nD τ).loc main_arg1)) :=
  (show W5 m ρ c (Proc.devRef .tc main_v5) = W4 m ρ c (Proc.devRef .tc main_v5) by keep_host hostOps1).trans (w4_src m ρ c)
theorem w5_dst : W5 m ρ c (Proc.devRef .tc main_v6) = Spec.dstOf (m ((c : Thread nD τ).loc main_arg1)) :=
  (show W5 m ρ c (Proc.devRef .tc main_v6) = W4 m ρ c (Proc.devRef .tc main_v6) by keep_host hostOps1).trans (w4_dst m ρ c)
theorem w5_norm : W5 m ρ c (Proc.devRef .tc main_v29) = Spec.normOf (m ((c : Thread nD τ).loc main_arg1)) :=
  (show W5 m ρ c (Proc.devRef .tc main_v29) = W4 m ρ c (Proc.devRef .tc main_v29) by keep_host hostOps1).trans (w4_norm m ρ c)
theorem w5_arg4 : W5 m ρ c (Proc.devRef .tc main_arg4) = m ((c : Thread nD τ).loc main_arg4) :=
  (show W5 m ρ c (Proc.devRef .tc main_arg4) = W4 m ρ c (Proc.devRef .tc main_arg4) by keep_host hostOps1).trans (w4_arg4 m ρ c)
theorem w5_arg5 : W5 m ρ c (Proc.devRef .tc main_arg5) = m ((c : Thread nD τ).loc main_arg5) :=
  (show W5 m ρ c (Proc.devRef .tc main_arg5) = W4 m ρ c (Proc.devRef .tc main_arg5) by keep_host hostOps1).trans (w4_arg5 m ρ c)
theorem w5_arg6 : W5 m ρ c (Proc.devRef .tc main_arg6) = m ((c : Thread nD τ).loc main_arg6) :=
  (show W5 m ρ c (Proc.devRef .tc main_arg6) = W4 m ρ c (Proc.devRef .tc main_arg6) by keep_host hostOps1).trans (w4_arg6 m ρ c)
theorem w5_arg7 : W5 m ρ c (Proc.devRef .tc main_arg7) = m ((c : Thread nD τ).loc main_arg7) :=
  (show W5 m ρ c (Proc.devRef .tc main_arg7) = W4 m ρ c (Proc.devRef .tc main_arg7) by keep_host hostOps1).trans (w4_arg7 m ρ c)

theorem w5_agg1 : W5 m ρ c (Proc.devRef .tc main_v43)
    = Spec.agg128 (F := Ideal) (m ((c : Thread nD τ).loc main_arg1)) (ExactProduct.mm (m ((c : Thread nD τ).loc main_arg0)) (m ((c : Thread nD τ).loc main_arg2))) := by
  show StableHlo.after hostOps1 (W4 m ρ c) (Proc.devRef .tc main_v43) = _
  after_results_simp
  rw [w4_lin1, w4_src, w4_dst, w4_norm]
  rfl

theorem w5_row1 : W5 m ρ c (Proc.devRef .tc main_v44) = Spec.row128 (F := Ideal) (m ((c : Thread nD τ).loc main_arg3)) := by
  show StableHlo.after hostOps1 (W4 m ρ c) (Proc.devRef .tc main_v44) = _
  after_results_simp
  rw [w4_arg3]
  rfl

theorem w6_src : W6 m ρ c (Proc.devRef .tc main_v5) = Spec.srcOf (m ((c : Thread nD τ).loc main_arg1)) :=
  (W6_of_ne m ρ c main_v5 (by decide)).trans (w5_src m ρ c)
theorem w6_dst : W6 m ρ c (Proc.devRef .tc main_v6) = Spec.dstOf (m ((c : Thread nD τ).loc main_arg1)) :=
  (W6_of_ne m ρ c main_v6 (by decide)).trans (w5_dst m ρ c)
theorem w6_norm : W6 m ρ c (Proc.devRef .tc main_v29) = Spec.normOf (m ((c : Thread nD τ).loc main_arg1)) :=
  (W6_of_ne m ρ c main_v29 (by decide)).trans (w5_norm m ρ c)
theorem w6_arg4 : W6 m ρ c (Proc.devRef .tc main_arg4) = m ((c : Thread nD τ).loc main_arg4) :=
  (W6_of_ne m ρ c main_arg4 (by decide)).trans (w5_arg4 m ρ c)
theorem w6_arg5 : W6 m ρ c (Proc.devRef .tc main_arg5) = m ((c : Thread nD τ).loc main_arg5) :=
  (W6_of_ne m ρ c main_arg5 (by decide)).trans (w5_arg5 m ρ c)
theorem w6_arg6 : W6 m ρ c (Proc.devRef .tc main_arg6) = m ((c : Thread nD τ).loc main_arg6) :=
  (W6_of_ne m ρ c main_arg6 (by decide)).trans (w5_arg6 m ρ c)
theorem w6_arg7 : W6 m ρ c (Proc.devRef .tc main_arg7) = m ((c : Thread nD τ).loc main_arg7) :=
  (W6_of_ne m ρ c main_arg7 (by decide)).trans (w5_arg7 m ρ c)

theorem w6_act1 : W6 m ρ c (Proc.devRef .tc main_v45) = act1 m c := by
  refine (W6_arr m ρ c 2).trans ?_
  rw [BiasValue.final1]
  show Spec.biasRelu (W5 m ρ c (Proc.devRef .tc main_v43)) (W5 m ρ c (Proc.devRef .tc main_v44)) = _
  rw [w5_agg1, w5_row1]
  rfl

/-! ## Layer 2 -/

theorem w7_src : W7 m ρ c (Proc.devRef .tc main_v5) = Spec.srcOf (m ((c : Thread nD τ).loc main_arg1)) :=
  (W7_of_ne m ρ c main_v5 (by decide)).trans (w6_src m ρ c)
theorem w7_dst : W7 m ρ c (Proc.devRef .tc main_v6) = Spec.dstOf (m ((c : Thread nD τ).loc main_arg1)) :=
  (W7_of_ne m ρ c main_v6 (by decide)).trans (w6_dst m ρ c)
theorem w7_norm : W7 m ρ c (Proc.devRef .tc main_v29) = Spec.normOf (m ((c : Thread nD τ).loc main_arg1)) :=
  (W7_of_ne m ρ c main_v29 (by decide)).trans (w6_norm m ρ c)
theorem w7_arg5 : W7 m ρ c (Proc.devRef .tc main_arg5) = m ((c : Thread nD τ).loc main_arg5) :=
  (W7_of_ne m ρ c main_arg5 (by decide)).trans (w6_arg5 m ρ c)
theorem w7_arg6 : W7 m ρ c (Proc.devRef .tc main_arg6) = m ((c : Thread nD τ).loc main_arg6) :=
  (W7_of_ne m ρ c main_arg6 (by decide)).trans (w6_arg6 m ρ c)
theorem w7_arg7 : W7 m ρ c (Proc.devRef .tc main_arg7) = m ((c : Thread nD τ).loc main_arg7) :=
  (W7_of_ne m ρ c main_arg7 (by decide)).trans (w6_arg7 m ρ c)

theorem w7_lin2 : W7 m ρ c (Proc.devRef .tc main_v46) = ExactProduct.mm (act1 m c) (m ((c : Thread nD τ).loc main_arg4)) := by
  refine (W7_arr m ρ c 2).trans ?_
  rw [LinearValue.final2]
  show ExactProduct.mm (W6 m ρ c (Proc.devRef .tc main_v45)) (W6 m ρ c (Proc.devRef .tc main_arg4)) = _
  rw [w6_act1, w6_arg4]

theorem w8_src : W8 m ρ c (Proc.devRef .tc main_v5) = Spec.srcOf (m ((c : Thread nD τ).loc main_arg1)) :=
  (show W8 m ρ c (Proc.devRef .tc main_v5) = W7 m ρ c (Proc.devRef .tc main_v5) by keep_host hostOps3).trans (w7_src m ρ c)
theorem w8_dst : W8 m ρ c (Proc.devRef .tc main_v6) = Spec.dstOf (m ((c : Thread nD τ).loc main_arg1)) :=
  (show W8 m ρ c (Proc.devRef .tc main_v6) = W7 m ρ c (Proc.devRef .tc main_v6) by keep_host hostOps3).trans (w7_dst m ρ c)
theorem w8_norm : W8 m ρ c (Proc.devRef .tc main_v29) = Spec.normOf (m ((c : Thread nD τ).loc main_arg1)) :=
  (show W8 m ρ c (Proc.devRef .tc main_v29) = W7 m ρ c (Proc.devRef .tc main_v29) by keep_host hostOps3).trans (w7_norm m ρ c)
theorem w8_arg6 : W8 m ρ c (Proc.devRef .tc main_arg6) = m ((c : Thread nD τ).loc main_arg6) :=
  (show W8 m ρ c (Proc.devRef .tc main_arg6) = W7 m ρ c (Proc.devRef .tc main_arg6) by keep_host hostOps3).trans (w7_arg6 m ρ c)
theorem w8_arg7 : W8 m ρ c (Proc.devRef .tc main_arg7) = m ((c : Thread nD τ).loc main_arg7) :=
  (show W8 m ρ c (Proc.devRef .tc main_arg7) = W7 m ρ c (Proc.devRef .tc main_arg7) by keep_host hostOps3).trans (w7_arg7 m ρ c)

theorem w8_agg2 : W8 m ρ c (Proc.devRef .tc main_v59)
    = Spec.agg128 (F := Ideal) (m ((c : Thread nD τ).loc main_arg1)) (ExactProduct.mm (act1 m c) (m ((c : Thread nD τ).loc main_arg4))) := by
  show StableHlo.after hostOps3 (W7 m ρ c) (Proc.devRef .tc main_v59) = _
  after_results_simp
  rw [w7_lin2, w7_src, w7_dst, w7_norm]
  rfl

theorem w8_row2 : W8 m ρ c (Proc.devRef .tc main_v60) = Spec.row128 (F := Ideal) (m ((c : Thread nD τ).loc main_arg5)) := by
  show StableHlo.after hostOps3 (W7 m ρ c) (Proc.devRef .tc main_v60) = _
  after_results_simp
  rw [w7_arg5]
  rfl

theorem w9_src : W9 m ρ c (Proc.devRef .tc main_v5) = Spec.srcOf (m ((c : Thread nD τ).loc main_arg1)) :=
  (W9_of_ne m ρ c main_v5 (by decide)).trans (w8_src m ρ c)
theorem w9_dst : W9 m ρ c (Proc.devRef .tc main_v6) = Spec.dstOf (m ((c : Thread nD τ).loc main_arg1)) :=
  (W9_of_ne m ρ c main_v6 (by decide)).trans (w8_dst m ρ c)
theorem w9_norm : W9 m ρ c (Proc.devRef .tc main_v29) = Spec.normOf (m ((c : Thread nD τ).loc main_arg1)) :=
  (W9_of_ne m ρ c main_v29 (by decide)).trans (w8_norm m ρ c)
theorem w9_arg6 : W9 m ρ c (Proc.devRef .tc main_arg6) = m ((c : Thread nD τ).loc main_arg6) :=
  (W9_of_ne m ρ c main_arg6 (by decide)).trans (w8_arg6 m ρ c)
theorem w9_arg7 : W9 m ρ c (Proc.devRef .tc main_arg7) = m ((c : Thread nD τ).loc main_arg7) :=
  (W9_of_ne m ρ c main_arg7 (by decide)).trans (w8_arg7 m ρ c)

theorem w9_act2 : W9 m ρ c (Proc.devRef .tc main_v61) = act2 m c := by
  refine (W9_arr m ρ c 2).trans ?_
  rw [BiasValue.final3]
  show Spec.biasRelu (W8 m ρ c (Proc.devRef .tc main_v59)) (W8 m ρ c (Proc.devRef .tc main_v60)) = _
  rw [w8_agg2, w8_row2]
  rfl

/-! ## Layer 3 -/

theorem w10_src : W10 m ρ c (Proc.devRef .tc main_v5) = Spec.srcOf (m ((c : Thread nD τ).loc main_arg1)) :=
  (W10_of_ne m ρ c main_v5 (by decide)).trans (w9_src m ρ c)
theorem w10_dst : W10 m ρ c (Proc.devRef .tc main_v6) = Spec.dstOf (m ((c : Thread nD τ).loc main_arg1)) :=
  (W10_of_ne m ρ c main_v6 (by decide)).trans (w9_dst m ρ c)
theorem w10_norm : W10 m ρ c (Proc.devRef .tc main_v29) = Spec.normOf (m ((c : Thread nD τ).loc main_arg1)) :=
  (W10_of_ne m ρ c main_v29 (by decide)).trans (w9_norm m ρ c)
theorem w10_arg7 : W10 m ρ c (Proc.devRef .tc main_arg7) = m ((c : Thread nD τ).loc main_arg7) :=
  (W10_of_ne m ρ c main_arg7 (by decide)).trans (w9_arg7 m ρ c)

theorem w10_lin3 : W10 m ρ c (Proc.devRef .tc main_v62) = ExactProduct.mm (act2 m c) (m ((c : Thread nD τ).loc main_arg6)) := by
  refine (W10_arr m ρ c 2).trans ?_
  rw [LinearValue.final4]
  show ExactProduct.mm (W9 m ρ c (Proc.devRef .tc main_v61)) (W9 m ρ c (Proc.devRef .tc main_arg6)) = _
  rw [w9_act2, w9_arg6]

theorem w11_agg3 : W11 m ρ c (Proc.devRef .tc main_v75)
    = Spec.agg10 (F := Ideal) (m ((c : Thread nD τ).loc main_arg1)) (ExactProduct.mm (act2 m c) (m ((c : Thread nD τ).loc main_arg6))) := by
  show StableHlo.after hostOps5 (W10 m ρ c) (Proc.devRef .tc main_v75) = _
  after_results_simp
  rw [w10_lin3, w10_src, w10_dst, w10_norm]
  rfl

theorem w11_row3 : W11 m ρ c (Proc.devRef .tc main_v76) = Spec.row10 (F := Ideal) (m ((c : Thread nD τ).loc main_arg7)) := by
  show StableHlo.after hostOps5 (W10 m ρ c) (Proc.devRef .tc main_v76) = _
  after_results_simp
  rw [w10_arg7]
  rfl

theorem w12_act3 : W12 m ρ c (Proc.devRef .tc main_v77) = act3 m c := by
  refine (W12_arr m ρ c 2).trans ?_
  rw [BiasValue.final5]
  show Spec.bias (W11 m ρ c (Proc.devRef .tc main_v75)) (W11 m ρ c (Proc.devRef .tc main_v76)) = _
  rw [w11_agg3, w11_row3]
  rfl

/-! ## The mean and the log-softmax -/

/-- The result buffer at the last boundary is the network's value of the arguments as launched. -/
theorem value : W14 m ρ c (Proc.devRef .tc main_v82)
    = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [net_eq]
  show StableHlo.after hostOps6_1 (StableHlo.after hostOps6 (W12 m ρ c)) (Proc.devRef .tc main_v82) = _
  after_results_simp
  rw [w12_act3]
  rfl

end Cert.KernelIdeal.KernelValue

end
-- ==== Proof.RefValue.lean ====
/-
  The reference program's result is the network's value of its arguments.

  The reference computes, per layer, h ↦ A · (h · W) + b: the product h · W by the host's contraction of axis 1 against
  axis 0, the normalised aggregation A over the edge list (gather the source rows, scale by the edge weights, sum into the
  destination rows), and the bias vector laid out as one row, copied into every row, and added; after the first two layers
  the entrywise maximum with 0; then the mean over the nodes and the log-softmax of that row.

  First the result term is identified with this staging, operation for operation. Then each dense stage is rewritten on
  the extended reals: the contraction is the exact matrix product, entry (r, c) being Σ_k h(r, k) · W(k, c); the bias sum
  followed by the maximum is, at (r, c), max(a(r, c) + b(c), 0); the last bias sum is a(r, c) + b(c). The edge-indexed
  parts and the final mean and log-softmax are the same host operations on both sides.
-/
import proofs.«103406_j31817117729398_1_alg».proof.Proof.RefRun
import proofs.«103406_j31817117729398_1_alg».proof.Proof.Spec
import proofs.«103406_j31817117729398_1_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Facts₀ Cert.ReferenceIdeal.Facts Idealize.ShloMosaic Idealize.ShloMosaic.TcCoe Idealize.ShloMosaic.ValueIdx

section Staging

variable {F : FTy → Type} [FloatOps F]

/-- The product of a 50000 × 128 array and a 128 × 128 weight, as the host contracts them. -/
def dense128 (h : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none h w

/-- The product of a 50000 × 128 array and a 128 × 10 weight. -/
def dense10 (h : (⟨S50000x128, .f32⟩ : BufTy).Contents (Elt F)) (w : (⟨S128x10, .f32⟩ : BufTy).Contents (Elt F)) :
    (⟨S50000x10, .f32⟩ : BufTy).Contents (Elt F) :=
  Host.dotGeneral dot_S50000x128_S128x10_S50000x10_1_0_0_1_n_n none h w

/-- A 128-vector laid out as one row, copied into every row, and added. -/
def addRow128 (a : (⟨S50000x128, .f32⟩ : BufTy).Contents (Elt F)) (b : (⟨S128, .f32⟩ : BufTy).Contents (Elt F)) :
    (⟨S50000x128, .f32⟩ : BufTy).Contents (Elt F) :=
  addf a (broadcastInDim S50000x128 ![0, 1] bcast_S1x128_S50000x128_0_1 (broadcastInDim S1x128 ![1] bcast_S128_S1x128_1 b))

/-- A 10-vector laid out as one row, copied into every row, and added. -/
def addRow10 (a : (⟨S50000x10, .f32⟩ : BufTy).Contents (Elt F)) (b : (⟨S10, .f32⟩ : BufTy).Contents (Elt F)) :
    (⟨S50000x10, .f32⟩ : BufTy).Contents (Elt F) :=
  addf a (broadcastInDim S50000x10 ![0, 1] bcast_S1x10_S50000x10_0_1 (broadcastInDim S1x10 ![1] bcast_S10_S1x10_1 b))

/-- The entrywise maximum with the constant 0. -/
def relu128 (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- The network staged as the reference computes it: per layer the product, the aggregation over the edges, the bias row,
    and (first two layers) the maximum with 0; then the mean over the nodes and the log-softmax. -/
def refNet (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x10, .f32⟩ : BufTy).Contents (Elt F)) (b3 : (⟨S10, .f32⟩ : BufTy).Contents (Elt F)) :
    (⟨S1x10, .f32⟩ : BufTy).Contents (Elt F) :=
  Cert.KernelIdeal.Spec.logSoftmax (Cert.KernelIdeal.Spec.meanOf
    (addRow10 (Cert.KernelIdeal.Spec.agg10 e (dense10
      (relu128 (addRow128 (Cert.KernelIdeal.Spec.agg128 e (dense128
        (relu128 (addRow128 (Cert.KernelIdeal.Spec.agg128 e (dense128 x w1)) b1)) w2)) b2)) w3)) b3))

end Staging

set_option maxRecDepth 8192 in
set_option maxHeartbeats 1000000 in
/-- The reference's result term is the staged network of the arguments: the same tree of operations. -/
theorem res_eq_refNet (m : (ℓ : Loc nD τ sig) → Buf (Elt Ideal) ℓ) (c : Dev nD) :
    Cert.ReferenceIdeal.ValueP.res_main_v139 (F := Ideal) m c
      = refNet (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v139
  rfl

/-- The host's contraction is the exact product. -/
theorem dense128_eq (h : (⟨S50000x128, .f32⟩ : BufTy).Contents (Elt Ideal)) (w : (⟨S128x128, .f32⟩ : BufTy).Contents (Elt Ideal)) :
    dense128 (F := Ideal) h w = ExactProduct.mm h w :=
  ExactProduct.hostDot_eq_mm _ rfl none h w

theorem dense10_eq (h : (⟨S50000x128, .f32⟩ : BufTy).Contents (Elt Ideal)) (w : (⟨S128x10, .f32⟩ : BufTy).Contents (Elt Ideal)) :
    dense10 (F := Ideal) h w = ExactProduct.mm h w :=
  ExactProduct.hostDot_eq_mm _ rfl none h w

/-- The bias vector copied into every row and added, then the maximum with 0, entry by entry. -/
theorem relu_addRow128_eq (a : (⟨S50000x128, .f32⟩ : BufTy).Contents (Elt Ideal)) (b : (⟨S128, .f32⟩ : BufTy).Contents (Elt Ideal)) :
    relu128 (F := Ideal) (addRow128 (F := Ideal) a b)
      = Cert.KernelIdeal.Spec.biasRelu a (Cert.KernelIdeal.Spec.row128 (F := Ideal) b) := by
  funext i
  obtain ⟨r, c, rfl⟩ : ∃ (r : Fin 50000) (c : Fin 128), i = ix2 r c := ⟨i 0, i 1, eq_ix2 i⟩
  have h0 : broadcastInDim S50000x128 ![] bcast_S_S50000x128 (constant (F := Ideal) S_ .f32 0x00000000#32) (ix2 r c) = (0 : EReal) :=
    (broadcastInDim_scalar_apply _ _ _).trans ((constant_apply _ _).trans Ideal.ofBits_zero_f32)
  have h1 : broadcastInDim S50000x128 ![0, 1] bcast_S1x128_S50000x128_0_1 (broadcastInDim S1x128 ![1] bcast_S128_S1x128_1 b) (ix2 r c)
      = Cert.KernelIdeal.Spec.row128 (F := Ideal) b (ix2 (0 : Fin 1) c) :=
    (ExactProduct.rowOfVector_apply b bcast_S128_S1x128_1 bcast_S1x128_S50000x128_0_1 r c).trans
      (shapeCast_a_1a_apply b _ (0 : Fin 1) c).symm
  exact congrArg₂ max (congrArg (a (ix2 r c) + ·) h1) h0

/-- The bias vector copied into every row and added, entry by entry. -/
theorem addRow10_eq (a : (⟨S50000x10, .f32⟩ : BufTy).Contents (Elt Ideal)) (b : (⟨S10, .f32⟩ : BufTy).Contents (Elt Ideal)) :
    addRow10 (F := Ideal) a b = Cert.KernelIdeal.Spec.bias a (Cert.KernelIdeal.Spec.row10 (F := Ideal) b) := by
  funext i
  obtain ⟨r, c, rfl⟩ : ∃ (r : Fin 50000) (c : Fin 10), i = ix2 r c := ⟨i 0, i 1, eq_ix2 i⟩
  have h1 : broadcastInDim S50000x10 ![0, 1] bcast_S1x10_S50000x10_0_1 (broadcastInDim S1x10 ![1] bcast_S10_S1x10_1 b) (ix2 r c)
      = Cert.KernelIdeal.Spec.row10 (F := Ideal) b (ix2 (0 : Fin 1) c) :=
    (ExactProduct.rowOfVector_apply b bcast_S10_S1x10_1 bcast_S1x10_S50000x10_0_1 r c).trans
      (shapeCast_a_1a_apply b _ (0 : Fin 1) c).symm
  exact congrArg (a (ix2 r c) + ·) h1

/-- The staged network with every dense stage on the extended reals. -/
theorem refNet_eq_net (x : (⟨S50000x128, .f32⟩ : BufTy).Contents (Elt Ideal)) (e : (⟨S2x800000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x10, .f32⟩ : BufTy).Contents (Elt Ideal)) (b3 : (⟨S10, .f32⟩ : BufTy).Contents (Elt Ideal)) :
    refNet (F := Ideal) x e w1 b1 w2 b2 w3 b3 = Cert.KernelIdeal.Spec.net x e w1 b1 w2 b2 w3 b3 := by
  unfold refNet Cert.KernelIdeal.Spec.net
  rw [addRow10_eq, dense10_eq, relu_addRow128_eq, dense128_eq, relu_addRow128_eq, dense128_eq]

theorem res_eq_net (m : (ℓ : Loc nD τ sig) → Buf (Elt Ideal) ℓ) (c : Dev nD) :
    Cert.ReferenceIdeal.ValueP.res_main_v139 (F := Ideal) m c
      = Cert.KernelIdeal.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq_refNet m c).trans (refNet_eq_net _ _ _ _ _ _ _ _)

end Cert.ReferenceIdeal.RefValue

end
-- ==== Proof.lean ====
/-
  The claim: a three-layer graph-convolution network whose dense parts (the matrix products and the bias rows, with
  max(·, 0) after the first two layers) run as six grids of block computations, against the same network computed by
  host operations alone.

  On the extended reals both programs compute ONE function of the arguments (Proof/Spec.lean, `Spec.net`): rounding the
  operands of a product to a shorter float format is the identity there, a product accumulated into zero block of rows
  by block of rows is the exact matrix product whatever the tiling of the rows, and the bias row added block by block
  is the bias row added to every row; the edge-indexed parts, the mean and the log-softmax are the same host operations
  in both programs. The kernel side is the program's run with its result named (Proof/KernelRun.lean) and the result
  read through the segments (Proof/KernelValue.lean, over the per-grid values of Proof/RegionLinear.lean and
  Proof/RegionBias.lean); the reference side is its run (Proof/RefRun.lean) and its term read as the same function
  (Proof/RefValue.lean). No law used needs finiteness, so the precondition is never opened. The ideal pass rewrote no
  operation, so `preserves` has nothing to state.
-/
import proofs.«103406_j31817117729398_1_alg».proof.Defs
import proofs.«103406_j31817117729398_1_alg».proof.Proof.Gen.Kernel
import proofs.«103406_j31817117729398_1_alg».proof.Proof.Gen.Kernel.Frame
import proofs.«103406_j31817117729398_1_alg».proof.Proof.Gen.KernelIdeal
import proofs.«103406_j31817117729398_1_alg».proof.Proof.Gen.KernelIdeal.Frame
import proofs.«103406_j31817117729398_1_alg».proof.Proof.Gen.ReferenceIdeal
import proofs.«103406_j31817117729398_1_alg».proof.Proof.Gen.Pre_finite_inputs
import proofs.«103406_j31817117729398_1_alg».proof.Proof.KernelRun
import proofs.«103406_j31817117729398_1_alg».proof.Proof.KernelValue
import proofs.«103406_j31817117729398_1_alg».proof.Proof.RefRun
import proofs.«103406_j31817117729398_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network's value of the arguments. -/
theorem algebraic : Cert.algebraic_KernelIdeal_ReferenceIdeal := by
  intro m ρ m' ρ' _ hagree
  refine ⟨fun c => Cert.KernelIdeal.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.value m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq_net, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
